-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x256 : Shape := ⟨3, ![16, 2048, 256]⟩
abbrev S1x512x256 : Shape := ⟨3, ![1, 512, 256]⟩
abbrev S_ : Shape := ⟨0, ![]⟩

class Facts : Prop where
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel
  bcast_S_S1x512x256 : S_.BroadcastsInDim S1x512x256 (![] : Fin 0 → Fin S1x512x256.rank)
  reducesTo_S1x512x256_S_d0_1_2 : S1x512x256.ReducesTo [0, 1, 2] S_

variable [Facts]

def fn {F : FTy → Type} [FloatOps F] (main_arg0 : FVec F S16x2048x256 .f32) (main_arg1 : FVec F S1x512x256 .f32) : IVec S_ 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_c : IVec S_ 1 := constantI S_ 1 1#1
  let main_v3 : IVec S_ 1 := (fun x v => Host.reduce IntOp.andi x v reducesTo_S16x2048x256_S_d0_1_2 h_S_) main_v2 main_c
  let main_v4 : FVec F S1x512x256 .f32 := Host.absf main_arg1
  let main_cst_0 : FVec F S_ .f32 := constant S_ .f32 0x7F800000#32
  let main_v5 : FVec F S1x512x256 .f32 := broadcastInDim S1x512x256 ![] bcast_S_S1x512x256 main_cst_0
  let main_v6 : IVec S1x512x256 1 := cmpf .olt main_v4 main_v5
  let main_c_1 : IVec S_ 1 := constantI S_ 1 1#1
  let main_v7 : IVec S_ 1 := (fun x v => Host.reduce IntOp.andi x v reducesTo_S1x512x256_S_d0_1_2 h_S_) main_v6 main_c_1
  let main_v8 : IVec S_ 1 := andi main_v3 main_v7
  main_v8
-- ==== Kernel.lean ====
abbrev S16x2048x256 : Shape := ⟨3, ![16, 2048, 256]⟩
abbrev S1x512x256 : Shape := ⟨3, ![1, 512, 256]⟩
abbrev S512x256 : Shape := ⟨2, ![512, 256]⟩
abbrev S_ : Shape := ⟨0, ![]⟩
abbrev S512 : Shape := ⟨1, ![512]⟩
abbrev S512x1 : Shape := ⟨2, ![512, 1]⟩
abbrev S1x512 : Shape := ⟨2, ![1, 512]⟩
abbrev S32768x256 : Shape := ⟨2, ![32768, 256]⟩
abbrev S32768x512 : Shape := ⟨2, ![32768, 512]⟩
abbrev S4096x256 : Shape := ⟨2, ![4096, 256]⟩
abbrev S4096x512 : Shape := ⟨2, ![4096, 512]⟩
abbrev S4096 : Shape := ⟨1, ![4096]⟩
abbrev S4096x1 : Shape := ⟨2, ![4096, 1]⟩
abbrev S16x2048x512 : Shape := ⟨3, ![16, 2048, 512]⟩

abbrev nBuf : Space → Nat
  | .hbm => 11
  | .vmem => 6
  | .smem => 0
  | _ => 0

abbrev bufTy : (tb : Table) → Fin (tcTables nBuf tb) → BufTy
  | .hbm, ⟨0, _⟩ => ⟨S16x2048x256, .f32⟩
  | .hbm, ⟨1, _⟩ => ⟨S1x512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S1x512, .f32⟩
  | .hbm, ⟨8, _⟩ => ⟨S32768x256, .f32⟩
  | .hbm, ⟨9, _⟩ => ⟨S32768x512, .f32⟩
  | .hbm, ⟨10, _⟩ => ⟨S16x2048x512, .f32⟩
  | .local _ .vmem, ⟨0, _⟩ => ⟨S4096x256, .f32⟩
  | .local _ .vmem, ⟨1, _⟩ => ⟨S4096x256, .f32⟩
  | .local _ .vmem, ⟨2, _⟩ => ⟨S512x256, .f32⟩
  | .local _ .vmem, ⟨3, _⟩ => ⟨S1x512, .f32⟩
  | .local _ .vmem, ⟨4, _⟩ => ⟨S4096x512, .f32⟩
  | .local _ .vmem, ⟨5, _⟩ => ⟨S4096x512, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x512x256_S512x256 : S1x512x256.ShapeCasts S512x256
  reducesTo_S512x256_S512_d1 : S512x256.ReducesTo [1] S512
  h_S_ : 0 < S_.numel
  bcast_S512_S512x1_0 : S512.BroadcastsInDim S512x1 (![0] : Fin 1 → Fin S512x1.rank)
  shapeCasts_S512x1_S1x512 : S512x1.ShapeCasts S1x512
  shapeCasts_S16x2048x256_S32768x256 : S16x2048x256.ShapeCasts S32768x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x512_S1x512_0_0 : ∀ a, (![0, 0] : Fin 2 → Nat) a + S1x512.size a ≤ S1x512.size a
  h_S1x512 : 0 < S1x512.numel
  shapeCasts_S1x512_S1x512 : S1x512.ShapeCasts S1x512
  bitsLt_bf16_f32 : FTy.bits .bf16 < FTy.bits .f32
  inb_S4096x512_S4096x512_0_0 : ∀ a, (![0, 0] : Fin 2 → Nat) a + S4096x512.size a ≤ S4096x512.size a
  h_S4096x512 : 0 < S4096x512.numel
  reduces_S4096x256_S4096 : S4096x256.Reduces [1] S4096
  shapeCasts_S4096_S4096x1 : S4096.ShapeCasts S4096x1
  broadcasts_S4096x1_S4096x512 : S4096x1.Broadcasts S4096x512
  broadcasts_S1x512_S4096x512 : S1x512.Broadcasts S4096x512
  shapeCasts_S4096x512_S4096x512 : S4096x512.ShapeCasts S4096x512
  shapeCasts_S32768x512_S16x2048x512 : S32768x512.ShapeCasts S16x2048x512
  dot_S4096x256_S512x256_S4096x512_1_1_0_0_n_n_wf : DotDims.WF S4096x256 S512x256 S4096x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S32768x256.size a
  hwx0_0 : ∀ i : grid0.Coords, EltTy.bits .f32 = 32 ∨ (Rect.block (s := S32768x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S32768x512.size a
  hwx0_3 : ∀ i : grid0.Coords, EltTy.bits .f32 = 32 ∨ (Rect.block (s := S32768x512) S4096x512.size (cc0_transform_3 i) (hinb0_3 i)).WholeWords (EltTy.packing .f32)

variable [Facts₀]

def dot_S4096x256_S512x256_S4096x512_1_1_0_0_n_n : DotDims S4096x256 S512x256 S4096x512 where
  lhsContracting := [1]
  rhsContracting := [1]
  lhsNonContracting := [0]
  rhsNonContracting := [0]
  lhsBatch := []
  rhsBatch := []
  wf := dot_S4096x256_S512x256_S4096x512_1_1_0_0_n_n_wf

abbrev win0_0 : Pipeline.Window sig grid0 :=
  Pipeline.Window.ofSpec (Memref.whole main_v5) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S4096x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x256 : Shape := ⟨3, ![16, 2048, 256]⟩
abbrev S1x512x256 : Shape := ⟨3, ![1, 512, 256]⟩
abbrev S512x256 : Shape := ⟨2, ![512, 256]⟩
abbrev S_ : Shape := ⟨0, ![]⟩
abbrev S16x2048 : Shape := ⟨2, ![16, 2048]⟩
abbrev S16x2048x1 : Shape := ⟨3, ![16, 2048, 1]⟩
abbrev S512 : Shape := ⟨1, ![512]⟩
abbrev S16x2048x512 : Shape := ⟨3, ![16, 2048, 512]⟩
abbrev S1x1x512 : Shape := ⟨3, ![1, 1, 512]⟩

abbrev nBuf : Space → Nat
  | .hbm => 19
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S1x512x256, .f32⟩
  | .hbm, ⟨2, _⟩ => ⟨S512x256, .f32⟩
  | .hbm, ⟨3, _⟩ => ⟨S16x2048x256, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S512x256, .f32⟩
  | .hbm, ⟨8, _⟩ => ⟨S_, .f32⟩
  | .hbm, ⟨9, _⟩ => ⟨S512, .f32⟩
  | .hbm, ⟨10, _⟩ => ⟨S16x2048x512, .f32⟩
  | .hbm, ⟨11, _⟩ => ⟨S1x1x512, .f32⟩
  | .hbm, ⟨12, _⟩ => ⟨S16x2048x512, .f32⟩
  | .hbm, ⟨13, _⟩ => ⟨S16x2048x512, .f32⟩
  | .hbm, ⟨14, _⟩ => ⟨S16x2048x512, .f32⟩
  | .hbm, ⟨15, _⟩ => ⟨S_, .f32⟩
  | .hbm, ⟨16, _⟩ => ⟨S16x2048x512, .f32⟩
  | .hbm, ⟨17, _⟩ => ⟨S16x2048x512, .f32⟩
  | .hbm, ⟨18, _⟩ => ⟨S16x2048x512, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  shapeCasts_S1x512x256_S512x256 : S1x512x256.ShapeCasts S512x256
  reducesTo_S16x2048x256_S16x2048_d2 : S16x2048x256.ReducesTo [2] S16x2048
  h_S_ : 0 < S_.numel
  bcast_S16x2048_S16x2048x1_0_1 : S16x2048.BroadcastsInDim S16x2048x1 (![0, 1] : Fin 2 → Fin S16x2048x1.rank)
  reducesTo_S512x256_S512_d1 : S512x256.ReducesTo [1] S512
  bcast_S512_S1x1x512_2 : S512.BroadcastsInDim S1x1x512 (![2] : Fin 1 → Fin S1x1x512.rank)
  bcast_S16x2048x1_S16x2048x512_0_1_2 : S16x2048x1.BroadcastsInDim S16x2048x512 (![0, 1, 2] : Fin 3 → Fin S16x2048x512.rank)
  bcast_S1x1x512_S16x2048x512_0_1_2 : S1x1x512.BroadcastsInDim S16x2048x512 (![0, 1, 2] : Fin 3 → Fin S16x2048x512.rank)
  bcast_S_S16x2048x512 : S_.BroadcastsInDim S16x2048x512 (![] : Fin 0 → Fin S16x2048x512.rank)
  dot_S16x2048x256_S512x256_S16x2048x512_2_1_01_0_n_n_wf : DotDims.WF S16x2048x256 S512x256 S16x2048x512 [2] [1] [0, 1] [0] [] []

variable [Facts₀]

def dot_S16x2048x256_S512x256_S16x2048x512_2_1_01_0_n_n : DotDims S16x2048x256 S512x256 S16x2048x512 where
  lhsContracting := [2]
  rhsContracting := [1]
  lhsNonContracting := [0, 1]
  rhsNonContracting := [0]
  lhsBatch := []
  rhsBatch := []
  wf := dot_S16x2048x256_S512x256_S16x2048x512_2_1_01_0_n_n_wf

class Facts : Prop extends Facts₀ where

variable [Facts]
-- ==== Proof.Spec.lean ====
/-
  The squared Euclidean distance from each feature row to each centre, as one function of the two argument
  arrays over the extended reals: ‖x‖² + ‖c‖² − 2·⟨x, c⟩, every sum a plain sum over the 256 coordinates.
-/
import Idealize.ShloMosaic.PureOps.Ideal
import Idealize.ShloMosaic.PureOps.Ideal.Laws
import Idealize.ShloMosaic.Lib.ValueIdx

noncomputable section

open scoped BigOperators

namespace Cert.SqDist

open Idealize.ShloMosaic Idealize.ShloMosaic.ValueIdx

/-- The float literal 2.0, kept as its word: both programs multiply by the same one. -/
abbrev two : EReal := Ideal.ofBits .f32 0x40000000#32

/-- ‖x‖² + n − 2·⟨x, c⟩ for a row `x`, a centre `c` and a given value `n` of the centre's squared norm. -/
def combine (x c : Fin 256 → EReal) (n : EReal) : EReal :=
  (∑ k : Fin 256, x k * x k + n) - two * ∑ k : Fin 256, x k * c k

/-- The squared norm of a row. -/
def normSq (c : Fin 256 → EReal) : EReal := ∑ k : Fin 256, c k * c k

/-- The features as 32768 rows of 256. -/
abbrev Rows : Shape := ⟨2, ![32768, 256]⟩
/-- The centres as 512 rows of 256. -/
abbrev Centres : Shape := ⟨2, ![512, 256]⟩
/-- The centres' squared norms as one row of 512. -/
abbrev Norms : Shape := ⟨2, ![1, 512]⟩
/-- The distances as 32768 rows of 512. -/
abbrev Dists : Shape := ⟨2, ![32768, 512]⟩

/-- The distance table in its flat layout, from the feature rows, the centre rows and a row of centre norms:
    entry (r, q) combines feature row r with centre q. -/
def table (X : Rows.Idx → EReal) (C : Centres.Idx → EReal) (N : Norms.Idx → EReal) : Dists.Idx → EReal :=
  fun j => combine (fun k => X (ix2 (n0 := 32768) (j 0) k)) (fun k => C (ix2 (n0 := 512) (j 1) k)) (N (ix2 (0 : Fin 1) (j 1)))

theorem table_apply (X : Rows.Idx → EReal) (C : Centres.Idx → EReal) (N : Norms.Idx → EReal) (r : Fin 32768) (q : Fin 512) :
    table X C N (ix2 r q) = combine (fun k => X (ix2 r k)) (fun k => C (ix2 q k)) (N (ix2 (0 : Fin 1) q)) := rfl

/-- The result as a function of the two argument arrays: entry (b, s, q) is the squared distance from feature
    row (b, s) to centre q. -/
def result (A0 : (⟨3, ![16, 2048, 256]⟩ : Shape).Idx → EReal) (A1 : (⟨3, ![1, 512, 256]⟩ : Shape).Idx → EReal) :
    (⟨3, ![16, 2048, 512]⟩ : Shape).Idx → EReal :=
  fun i => combine (fun k => A0 (ix3 (n0 := 16) (n1 := 2048) (i 0) (i 1) k)) (fun k => A1 (ix3 (0 : Fin 1) (n1 := 512) (i 2) k))
    (normSq fun k => A1 (ix3 (0 : Fin 1) (n1 := 512) (i 2) k))

theorem result_apply (A0 : (⟨3, ![16, 2048, 256]⟩ : Shape).Idx → EReal) (A1 : (⟨3, ![1, 512, 256]⟩ : Shape).Idx → EReal)
    (b : Fin 16) (s : Fin 2048) (q : Fin 512) :
    result A0 A1 (ix3 b s q) = combine (fun k => A0 (ix3 b s k)) (fun k => A1 (ix3 (0 : Fin 1) q k))
      (normSq fun k => A1 (ix3 (0 : Fin 1) q k)) := rfl

end Cert.SqDist

end
-- ==== Proof.Entry.lean ====
/-
  The arrays the kernel's region finds on entry, as functions of the two arguments. Before the region the host
  flattens the features to 32768 rows, drops the centres' unit axis, and computes the centres' squared norms as a
  row of 512 (square, sum along the 256, keep the axis, lay the column out as a row). Read at an index over the
  extended reals: flat row b·2048 + s is feature row (b, s); centre row q is row (0, q); the norm at q is the plain
  sum of the squares of centre row q (the sum's zero start adds nothing).
-/
import proofs.«148813_j84095459656141_2_alg».proof.Proof.Gen.KernelIdeal.Frame
import Idealize.ShloMosaic.Lib.Pipeline.Value
import Idealize.ShloMosaic.Lib.StableHlo.Run
import Idealize.ShloMosaic.Lib.ValueIdx
import Idealize.ShloMosaic.PureOps.Ideal.Laws
import proofs.«148813_j84095459656141_2_alg».proof.Proof.Spec

noncomputable section

open Idealize.ShloMosaic Idealize.ShloMosaic.TcCoe Idealize.SL.Sem Idealize.ShloMosaic.ValueIdx

namespace Cert.KernelIdeal.Entry

open Cert.KernelIdeal Cert.KernelIdeal.Gen

variable {F : FTy → Type} [FloatOps F]
variable (m : (ℓ : Loc nD τ sig) → Buf (Elt F) ℓ)

/-- The flattened features the region reads. -/
theorem rows_eq (c : Dev nD) :
    (V m c main_v5 : S32768x256.Idx → Elt F .f32)
      = shapeCast _ (m ((c.tc : Thread nD τ).loc main_arg0)) Facts₀.shapeCasts_S16x2048x256_S32768x256 := by
  show StableHlo.after hostOps0 (fun b => m (c, b)) (Proc.devRef .tc main_v5) = _
  after_results
  rfl

/-- The centres with their unit axis dropped. -/
theorem centres_eq (c : Dev nD) :
    (V m c main_v0 : S512x256.Idx → Elt F .f32)
      = shapeCast _ (m ((c.tc : Thread nD τ).loc main_arg1)) Facts₀.shapeCasts_S1x512x256_S512x256 := by
  show StableHlo.after hostOps0 (fun b => m (c, b)) (Proc.devRef .tc main_v0) = _
  after_results
  rfl

/-- The row of the centres' squared norms, as the host computes it. -/
theorem norms_eq (c : Dev nD) :
    (V m c main_v4 : S1x512.Idx → Elt F .f32)
      = shapeCast _ (broadcastInDim S512x1 ![0] Facts₀.bcast_S512_S512x1_0
          (Host.reduceAdd (F := F) (mulf (shapeCast _ (m ((c.tc : Thread nD τ).loc main_arg1)) Facts₀.shapeCasts_S1x512x256_S512x256)
              (shapeCast _ (m ((c.tc : Thread nD τ).loc main_arg1)) Facts₀.shapeCasts_S1x512x256_S512x256))
            (constant (F := F) S_ .f32 0x00000000#32) Facts₀.reducesTo_S512x256_S512_d1 Facts₀.h_S_))
          Facts₀.shapeCasts_S512x1_S1x512 := by
  show StableHlo.after hostOps0 (fun b => m (c, b)) (Proc.devRef .tc main_v4) = _
  after_results
  rfl

/-- Row b·2048 + s of the flattened features is row (b, s) of the features. -/
theorem flat_row_apply (A0 : S16x2048x256.Idx → Ideal .f32) (b : Fin 16) (s : Fin 2048) (k : Fin 256) :
    shapeCast S32768x256 A0 Facts₀.shapeCasts_S16x2048x256_S32768x256
        (ix2 (⟨b.val * 2048 + s.val, by have := b.isLt; have := s.isLt; omega⟩ : Fin 32768) k)
      = A0 (ix3 b s k) := by
  refine shapeCast_apply A0 Facts₀.shapeCasts_S16x2048x256_S32768x256 _ (ix3 b s k) ?_
  rw [Shape.rowMajor_val_three, Shape.rowMajor_val_two]
  show (b.val * 2048 + s.val) * 256 + k.val = (b.val * 2048 + s.val) * 256 + k.val
  rfl

/-- Row q of the squeezed centres is row (0, q) of the centres. -/
theorem centre_row_apply (A1 : S1x512x256.Idx → Ideal .f32) (q : Fin 512) (k : Fin 256) :
    shapeCast S512x256 A1 Facts₀.shapeCasts_S1x512x256_S512x256 (ix2 q k) = A1 (ix3 (0 : Fin 1) q k) := by
  refine shapeCast_apply A1 Facts₀.shapeCasts_S1x512x256_S512x256 _ (ix3 (0 : Fin 1) q k) ?_
  rw [Shape.rowMajor_val_three, Shape.rowMajor_val_two]
  show (0 * 512 + q.val) * 256 + k.val = q.val * 256 + k.val
  omega

/-- The host's row of centre norms at q: the sum of the squares of centre row q. -/
theorem norm_row_apply (C : S512x256.Idx → Ideal .f32) (q : Fin 512) :
    shapeCast S1x512 (broadcastInDim S512x1 ![0] Facts₀.bcast_S512_S512x1_0
        (Host.reduceAdd (F := Ideal) (mulf C C) (constant (F := Ideal) S_ .f32 0x00000000#32)
          Facts₀.reducesTo_S512x256_S512_d1 Facts₀.h_S_)) Facts₀.shapeCasts_S512x1_S1x512 (ix2 (0 : Fin 1) q)
      = Cert.SqDist.normSq (fun k => C (ix2 q k)) := by
  refine (shapeCast_apply _ Facts₀.shapeCasts_S512x1_S1x512 _ (ix2 q (0 : Fin 1)) ?_).trans ?_
  · rw [Shape.rowMajor_val_two, Shape.rowMajor_val_two]
    show q.val * 1 + 0 = 0 * 512 + q.val
    omega
  refine (broadcastInDim_apply _ Facts₀.bcast_S512_S512x1_0 _ (ix2 q (0 : Fin 1)) (ix1 q) (fun a => ?_)).trans ?_
  · match a with
    | ⟨0, _⟩ => show q.val = if (512 : Nat) = 1 then 0 else q.val; rw [if_neg (by decide)]
  have hr : S512x256.Reduces [1] S512 := by decide
  have hl : ∀ k : Fin (S512x256.size 1), hr.lift (ix1 q) k = ix2 (n1 := 256) q k :=
    fun k => funext fun a => Fin.ext (by
      show Shape.Reduces.liftVal hr (ix1 q) k.val a = _
      unfold Shape.Reduces.liftVal
      match a with
      | ⟨0, _⟩ => rfl
      | ⟨1, _⟩ => rfl)
  simp only [Host.reduceAdd, Ideal.hostReduceAdd_def]
  rw [Ideal.hostReduceAdd_single Facts₀.reducesTo_S512x256_S512_d1 hr]
  show Ideal.ofBits .f32 0x00000000#32 + _ = _
  rw [Ideal.ofBits_zero_f32, zero_add]
  unfold Cert.SqDist.normSq
  exact Finset.sum_congr rfl fun k _ => by rw [hl k]; rfl

end Cert.KernelIdeal.Entry

end
-- ==== Proof.BodyValue.lean ====
/-
  What one grid step leaves in the output block. The body stores the cross products ⟨f, c⟩ into the block,
  reads them back, and overwrites the block with ‖f‖² + ‖c‖² − 2·⟨f, c⟩; so the block ends holding the
  second store's value, computed from the first store's value.
-/
import proofs.«148813_j84095459656141_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.BodyValue

open Cert.KernelIdeal Cert.KernelIdeal.Gen

variable {F : FTy → Type} [FloatOps F]

/-- The two zero offsets of a whole-block access. -/
theorem zero_offsets : (![0, 0] : Fin 2 → Nat) = fun _ => 0 := funext fun a => by fin_cases a <;> rfl

/-- After the body, the output block is the combine step applied to the feature block, the block of centre
    norms, and the cross-product block the first store left (itself a function of the feature and centre
    blocks): the later whole-block store hides the earlier one, and the load between them reads the earlier
    store's value. -/
theorem block_after_body (c : Dev nD) (i : grid0.Coords) (a1 : Memref sig .tc .vmem S4096x256 .f32) (h1 : a1.IsWhole)
    (a2 : Memref sig .tc .vmem S512x256 .f32) (h2 : a2.IsWhole) (a3 : Memref sig .tc .vmem S1x512 .f32) (h3 : a3.IsWhole)
    (a4 : Memref sig .tc .vmem S4096x512 .f32) (h4 : a4.IsWhole)
    (x0 : Vec F S4096x256 .f32) (x1 : Vec F S512x256 .f32) (x2 : Vec F S1x512 .f32) :
    out0_A_3 c i a1 h1 a2 h2 a3 h3 a4 h4 x0 x1 x2 = k0_pay3 x0 x2 (k0_pay2 x0 x1) := by
  unfold out0_A_3
  rw [View.read_writes_eq_canon _ _ _ (cover0_A_3 c i a1 h1 a2 h2 a3 h3 a4 h4 x0 x1 x2)]
  unfold kernelRun0_A
  dsimp only
  sl_unfold_words
  rw [View.canon_cons_unit_zero (S := S4096x512) zero_offsets, View.readCov_unit_zero (S := S4096x512) _ zero_offsets]
  simp only [View.readAt_eq_ld, h1.read_unread, h2.read_unread, h3.read_unread,
    View.ld_unit_zero (S := S4096x256) zero_offsets, View.ld_unit_zero (S := S512x256) zero_offsets,
    View.ld_unit_zero (S := S1x512) zero_offsets]

end Cert.KernelIdeal.BodyValue

end
-- ==== Proof.Payload.lean ====
/-
  One entry of the block the body computes, over the extended reals. With x the 4096×256 feature block, c the
  512×256 centre block and n the 1×512 row of centre norms, entry (p, q) of the stored block is
      (Σₖ x[p,k]·x[p,k] + n[0,q]) − 2·Σₖ x[p,k]·c[q,k]:
  the lane sum of squares kept as a column and spread along the row, the row of norms spread down the rows, and
  the matrix product into a zero accumulator read as a plain sum over the contracted axis (rounding the operands
  to a narrower format is the identity here).
-/
import proofs.«148813_j84095459656141_2_alg».proof.Proof.Gen.KernelIdeal.Skeleton
import Idealize.ShloMosaic.Lib.Pipeline.Value
import Idealize.ShloMosaic.Lib.ValueIdx
import Idealize.ShloMosaic.PureOps.Ideal.Laws
import proofs.«148813_j84095459656141_2_alg».proof.Proof.Spec

noncomputable section

open Idealize.ShloMosaic Idealize.ShloMosaic.ValueIdx

namespace Cert.KernelIdeal.Payload

open Cert.KernelIdeal Cert.KernelIdeal.Gen

/-- The row sums of squares, kept as a column [4096, 1] and spread along each row: entry (p, q) is Σₖ v[p,k]². -/
theorem sumsq_apply (v : FVec Ideal S4096x256 .f32)
    (hacc : (0x00000000#32 : BitVec 32) = 0x00000000#32) (p : Fin 4096) (q : Fin 512) :
    broadcastTo S4096x512 (shapeCast S4096x1 (multiReduction (F := Ideal) .add [1] S4096 (mulf v v) 0x00000000#32
        Facts₀.reduces_S4096x256_S4096 (.inl rfl) hacc) Facts₀.shapeCasts_S4096_S4096x1)
      Facts₀.broadcasts_S4096x1_S4096x512 (ix2 p q)
    = ∑ k : Fin 256, v (ix2 p k) * v (ix2 p k) := by
  refine (broadcastTo_apply _ Facts₀.broadcasts_S4096x1_S4096x512 (ix2 p q) (ix2 p (0 : Fin 1)) (fun a => ?_)).trans ?_
  · match a with
    | ⟨0, _⟩ => show p.val = if (4096 : Nat) = 1 then 0 else p.val; rw [if_neg (by decide)]
    | ⟨1, _⟩ => show 0 = if (1 : Nat) = 1 then 0 else q.val; rw [if_pos rfl]
  refine (shapeCast_apply _ Facts₀.shapeCasts_S4096_S4096x1 (ix2 p (0 : Fin 1)) (ix1 p) ?_).trans ?_
  · rw [Shape.rowMajor_val_one, Shape.rowMajor_val_two]; show p.val = p.val * 1 + 0; omega
  refine (Ideal.multiReduction_add_single (mulf v v) 0x00000000#32 Facts₀.reduces_S4096x256_S4096 (.inl rfl) hacc (ix1 p)).trans ?_
  have hl : ∀ k : Fin (S4096x256.size 1), Facts₀.reduces_S4096x256_S4096.lift (ix1 p) k = ix2 (n1 := 256) p k :=
    fun k => funext fun a => Fin.ext (by
      show Shape.Reduces.liftVal Facts₀.reduces_S4096x256_S4096 (ix1 p) k.val a = _
      unfold Shape.Reduces.liftVal
      match a with
      | ⟨0, _⟩ => rfl
      | ⟨1, _⟩ => rfl)
  exact Finset.sum_congr rfl fun k _ => by rw [hl k]; rfl

/-- A row [1, 512] spread down the 4096 rows: entry (p, q) is the row's entry q. -/
theorem cnorm_apply (w : Vec Ideal S1x512 .f32) (p : Fin 4096) (q : Fin 512) :
    broadcastTo S4096x512 w Facts₀.broadcasts_S1x512_S4096x512 (ix2 p q) = w (ix2 (0 : Fin 1) q) := by
  refine broadcastTo_apply _ Facts₀.broadcasts_S1x512_S4096x512 (ix2 p q) (ix2 (0 : Fin 1) q) (fun a => ?_)
  match a with
  | ⟨0, _⟩ => show 0 = if (1 : Nat) = 1 then 0 else p.val; rw [if_pos rfl]
  | ⟨1, _⟩ => show q.val = if (512 : Nat) = 1 then 0 else q.val; rw [if_neg (by decide)]

/-- The matmul's record of axes: rows of the left operand against rows of the right, contracted along the 256. -/
abbrev D : DotDims S4096x256 S512x256 S4096x512 := dot_S4096x256_S512x256_S4096x512_1_1_0_0_n_n

/-- The left operand is read at the output's row. -/
theorem lhs_row (i : S4096x512.Idx) (z : D.contr.Idx) : (D.lhsIdx i z 0).val = (i 0).val := by
  unfold DotDims.lhsIdx
  rw [dif_neg (show ¬(0 : Fin S4096x256.rank) ∈ D.lhsBatch by decide),
    dif_pos (show (0 : Fin S4096x256.rank) ∈ D.lhsNonContracting by decide)]
  rfl

/-- The right operand is read at the row named by the output's column. -/
theorem rhs_row (i : S4096x512.Idx) (z : D.contr.Idx) : (D.rhsIdx i z 0).val = (i 1).val := by
  unfold DotDims.rhsIdx
  rw [dif_neg (show ¬(0 : Fin S512x256.rank) ∈ D.rhsBatch by decide),
    dif_pos (show (0 : Fin S512x256.rank) ∈ D.rhsNonContracting by decide)]
  rfl

/-- The product of the feature block with the transposed centre block into a zero accumulator: entry (p, q) is
    Σₖ u[p,k]·w[q,k]. -/
theorem cross_apply (u : FVec Ideal S4096x256 .bf16) (w : FVec Ideal S512x256 .bf16) (p : Fin 4096) (q : Fin 512) :
    matmul (F := Ideal) D none u w (constant S4096x512 .f32 0x00000000#32) (ix2 p q)
    = ∑ k : Fin 256, u (ix2 p k) * w (ix2 q k) := by
  refine (Ideal.matmul_constant_zero_apply D none u w (ix2 p q)).trans ?_
  rw [← Equiv.sum_comp (ValueIdx.contrEquiv1 D 256 rfl rfl).symm]
  refine Finset.sum_congr rfl fun k _ => ?_
  have hk := ValueIdx.contrEquiv1_symm_val D 256 rfl rfl k
  have el : D.lhsIdx (ix2 p q) ((ValueIdx.contrEquiv1 D 256 rfl rfl).symm k) = ix2 p k :=
    funext fun a => Fin.ext (by
      match a with
      | ⟨0, _⟩ => exact lhs_row _ _
      | ⟨1, _⟩ => exact (D.lhsIdx_val_of_single rfl _ _).trans hk)
  have er : D.rhsIdx (ix2 p q) ((ValueIdx.contrEquiv1 D 256 rfl rfl).symm k) = ix2 q k :=
    funext fun a => Fin.ext (by
      match a with
      | ⟨0, _⟩ => exact rhs_row _ _
      | ⟨1, _⟩ => exact (D.rhsIdx_val_of_single rfl _ _).trans hk)
  rw [el, er]

/-- Entry (p, q) of what the body leaves in the output block, from its three input blocks. -/
theorem payload_apply (x0 : Vec Ideal S4096x256 .f32) (x1 : Vec Ideal S512x256 .f32) (x2 : Vec Ideal S1x512 .f32)
    (p : Fin 4096) (q : Fin 512) :
    k0_pay3 x0 x2 (k0_pay2 x0 x1) (ix2 p q)
      = Cert.SqDist.combine (fun k => x0 (ix2 p k)) (fun k => x1 (ix2 q k)) (x2 (ix2 (0 : Fin 1) q)) := by
  unfold k0_pay3 k0_pay2 k0_pay1
  dsimp only
  simp only [shapeCast_self, subf_apply, addf_apply, mulf_apply, broadcast_apply]
  rw [sumsq_apply x0 rfl p q, cnorm_apply x2 p q, cross_apply]
  rfl

/-- An entry of the stored block is an entry of the flat distance table, once each input block's row is known to
    be the matching row of the whole array: the feature row, the centre row, and the centre's norm. -/
theorem block_entry (X : S32768x256.Idx → Ideal .f32) (C : S512x256.Idx → Ideal .f32) (N : S1x512.Idx → Ideal .f32)
    (x0 : Vec Ideal S4096x256 .f32) (x1 : Vec Ideal S512x256 .f32) (x2 : Vec Ideal S1x512 .f32)
    (y : S4096x512.Idx) (i : S32768x512.Idx)
    (h0 : ∀ k : Fin 256, x0 (ix2 (n0 := 4096) (y 0) k) = X (ix2 (n0 := 32768) (i 0) k))
    (h1 : ∀ k : Fin 256, x1 (ix2 (n0 := 512) (y 1) k) = C (ix2 (n0 := 512) (i 1) k))
    (h2 : x2 (ix2 (0 : Fin 1) (n1 := 512) (y 1)) = N (ix2 (0 : Fin 1) (n1 := 512) (i 1))) :
    k0_pay3 x0 x2 (k0_pay2 x0 x1) y = Cert.SqDist.table X C N i := by
  obtain ⟨p, q, rfl⟩ : ∃ (p : Fin 4096) (q : Fin 512), y = ix2 p q := ⟨y 0, y 1, eq_ix2 y⟩
  obtain ⟨r, q', rfl⟩ : ∃ (r : Fin 32768) (q' : Fin 512), i = ix2 r q' := ⟨i 0, i 1, eq_ix2 i⟩
  rw [payload_apply, Cert.SqDist.table_apply]
  have h0' : (fun k => x0 (ix2 p k)) = fun k => X (ix2 r k) := funext h0
  have h1' : (fun k => x1 (ix2 q k)) = fun k => C (ix2 q' k) := funext h1
  rw [h0', h1', show x2 (ix2 (0 : Fin 1) q) = N (ix2 (0 : Fin 1) q') from h2]

end Cert.KernelIdeal.Payload

end
-- ==== Proof.Blocks.lean ====
/-
  From blocks to the array. Grid point t reads feature rows 4096·t … 4096·t + 4095, all 512 centres and the whole
  row of norms, and writes rows 4096·t … 4096·t + 4095 of the output, all 512 columns. Every block it writes is
  the matching block of ONE table — the flat distance table of the arrays the region finds on entry — and the eight
  blocks cover the output, so the output array ends as that table.
-/
import proofs.«148813_j84095459656141_2_alg».proof.Proof.Gen.KernelIdeal.Frame
import proofs.«148813_j84095459656141_2_alg».proof.Proof.BodyValue
import proofs.«148813_j84095459656141_2_alg».proof.Proof.Payload
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ)

/-- The flat distance table of the arrays the region finds. -/
abbrev tableAt (c : Dev nD) : S32768x512.Idx → Ideal .f32 :=
  Cert.SqDist.table (V m c main_v5) (V m c main_v0) (V m c main_v4)

/-- Where each window's block sits at point t: the features and the output move down one block of rows per point;
    the centres and the norms stay put; no window moves along its second axis. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the table: row p of the feature block is row 4096·t + p of the features,
    row q of the centre block is centre q, and the norm block is the whole row of norms. -/
theorem flushed_eq (c : Dev nD) (t : Fin cfg0.N) :
    (dats m 0 c).flushed 3 t = ((cfg0.win 3).blk t).view.read (Elt Ideal) (tableAt m c) := by
  show (cfg0.win 3).cut (grid0.coords t) ((dats m 0 c).after 3 t) = _
  rw [after0_3]
  unfold outsAt0
  rw [BodyValue.block_after_body]
  obtain ⟨e0, e1, e2, e3, e4, e5, e6, e7⟩ := idx_facts t
  funext j
  refine Payload.block_entry (V m c main_v5) (V m c main_v0) (V m c main_v4) (iblk m c 0 t) (iblk m c 1 t) (iblk m c 2 t)
    ((cfg0.win 3).xinj (grid0.coords t) j) (((cfg0.win 3).blk t).view.emb j) (fun k => ?_) (fun k => ?_) ?_
  · show V m c main_v5 (((cfg0.win 0).blk t).view.emb (ix2 ((cfg0.win 3).xinj (grid0.coords t) j 0) k)) = _
    refine congrArg (V m c main_v5) (funext fun a => Fin.ext ?_)
    match a with
    | ⟨0, _⟩ =>
      show win0_0.index t (0 : Fin 2) * 4096 + 1 * (j 0).val = win0_3.index t (0 : Fin 2) * 4096 + 1 * (j 0).val
      rw [e0]
    | ⟨1, _⟩ =>
      show win0_0.index t (1 : Fin 2) * 256 + 1 * k.val = k.val
      rw [e1]; omega
  · show V m c main_v0 (((cfg0.win 1).blk t).view.emb (ix2 ((cfg0.win 3).xinj (grid0.coords t) j 1) k)) = _
    refine congrArg (V m c main_v0) (funext fun a => Fin.ext ?_)
    match a with
    | ⟨0, _⟩ =>
      show win0_1.index t (0 : Fin 2) * 512 + 1 * (j 1).val = win0_3.index t (1 : Fin 2) * 512 + 1 * (j 1).val
      rw [e2, e7]
    | ⟨1, _⟩ =>
      show win0_1.index t (1 : Fin 2) * 256 + 1 * k.val = k.val
      rw [e3]; omega
  · show V m c main_v4 (((cfg0.win 2).blk t).view.emb (ix2 (0 : Fin 1) ((cfg0.win 3).xinj (grid0.coords t) j 1))) = _
    refine congrArg (V m c main_v4) (funext fun a => Fin.ext ?_)
    match a with
    | ⟨0, _⟩ =>
      show win0_2.index t (0 : Fin 2) * 1 + 1 * 0 = 0
      rw [e4]
    | ⟨1, _⟩ =>
      show win0_2.index t (1 : Fin 2) * 512 + 1 * (j 1).val = win0_3.index t (1 : Fin 2) * 512 + 1 * (j 1).val
      rw [e5, e7]

/-- An index of the output array is in point t's block iff each coordinate is in the block's range on its axis. -/
theorem mem_blk (t : Fin cfg0.N) (i : S32768x512.Idx) :
    i ∈ ((cfg0.win 3).blk t).view.set ↔ ∀ a : Fin 2, win0_3.index t a * S4096x512.size a ≤ (i a).val
      ∧ (i a).val < win0_3.index t a * S4096x512.size a + S4096x512.size a := by
  show i ∈ ((View.whole main_v6).slice (win0_3.rect t)).set ↔ _
  rw [View.set_slice_whole, Rect.mem_set_unit]
  exact Iff.rfl

/-- Row r of the output lies in the block of point r / 4096. -/
theorem covered (i : S32768x512.Idx) :
    ∃ t : Fin cfg0.N, (cfg0.win 3).flush t = true ∧ i ∈ ((cfg0.win 3).blk t).view.set := by
  have hN : cfg0.N = 8 := N_0
  have hi0 : (i 0).val < 32768 := (i 0).isLt
  have hi1 : (i 1).val < 512 := (i 1).isLt
  have ht : (i 0).val / 4096 < cfg0.N := by rw [hN]; omega
  obtain ⟨-, -, -, -, -, -, e6, e7⟩ := idx_facts ⟨(i 0).val / 4096, ht⟩
  refine ⟨⟨(i 0).val / 4096, ht⟩, flush0_3 _, ?_⟩
  rw [mem_blk]
  intro a
  match a with
  | ⟨0, _⟩ =>
    show win0_3.index ⟨(i 0).val / 4096, ht⟩ (0 : Fin 2) * 4096 ≤ (i 0).val
      ∧ (i 0).val < win0_3.index ⟨(i 0).val / 4096, ht⟩ (0 : Fin 2) * 4096 + 4096
    rw [e6]; show (i 0).val / 4096 * 4096 ≤ (i 0).val ∧ (i 0).val < (i 0).val / 4096 * 4096 + 4096; omega
  | ⟨1, _⟩ =>
    show win0_3.index ⟨(i 0).val / 4096, ht⟩ (1 : Fin 2) * 512 ≤ (i 1).val
      ∧ (i 1).val < win0_3.index ⟨(i 0).val / 4096, ht⟩ (1 : Fin 2) * 512 + 512
    rw [e7]; omega

/-- After the run the output array is the flat distance table of the arrays the region found. -/
theorem final (c : Dev nD) : (dats m 0 c).arrAt 3 cfg0.N = tableAt m c :=
  (dats m 0 c).arrAt_eq_of_cover 3 (tableAt m c) (fun t _ => flushed_eq m c t) covered

end Cert.KernelIdeal.Blocks

end
-- ==== Proof.KernelValue.lean ====
/-
  The kernel's result as a function of its two arguments. After the region the host regroups the 32768 output rows
  as 16 × 2048; row b·2048 + s of the flat distance table, read through the arrays the region found on entry, is
  entry (b, s, ·) of the squared-distance function of the arguments. So every run of the idealized kernel ends with
  its result at that function and its arguments unchanged.
-/
import proofs.«148813_j84095459656141_2_alg».proof.Proof.Gen.KernelIdeal.Frame
import proofs.«148813_j84095459656141_2_alg».proof.Proof.Entry
import proofs.«148813_j84095459656141_2_alg».proof.Proof.Blocks
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen

section AnyValues

variable {F : FTy → Type} [FloatOps F]
variable (m : (ℓ : Loc nD τ sig) → Buf (Elt F) ℓ)

/-- The result is the region's output array with its rows regrouped as 16 × 2048. -/
theorem tail_eq (c : Dev nD) :
    Pipeline.afterTail₀ cfgs (dats m) 0 (V0 m) [hostOps1] c main_v7
      = shapeCast S16x2048x512 ((dats m 0 c).arrAt 3 cfg0.N) Facts₀.shapeCasts_S32768x512_S16x2048x512 := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v6)
      = (dats m 0 c).arrAt 3 cfg0.N := Pipeline.withArrays_arr spec0 launch0.win.arr_inj c _ _ 3
  rw [e]
  rfl

end AnyValues

variable (m : (ℓ : Loc nD τ sig) → Buf (Elt Ideal) ℓ) (ρ : Dev nD → PrngReg)

/-- Flat row b·2048 + s, column q of the table over the entry arrays is entry (b, s, q) of the squared-distance
    function of the arguments. -/
theorem table_entry (c : Dev nD) (b : Fin 16) (s : Fin 2048) (q : Fin 512) :
    Blocks.tableAt m c (ix2 (⟨b.val * 2048 + s.val, by have := b.isLt; have := s.isLt; omega⟩ : Fin 32768) q)
      = Cert.SqDist.result (m ((c.tc : Thread nD τ).loc main_arg0)) (m ((c.tc : Thread nD τ).loc main_arg1)) (ix3 b s q) := by
  show Cert.SqDist.table (V m c main_v5) (V m c main_v0) (V m c main_v4) _ = _
  rw [Cert.SqDist.table_apply, Cert.SqDist.result_apply, Entry.rows_eq, Entry.centres_eq, Entry.norms_eq,
    Entry.norm_row_apply]
  have e0 : ∀ k : Fin 256, shapeCast S32768x256 (m ((c.tc : Thread nD τ).loc main_arg0)) Facts₀.shapeCasts_S16x2048x256_S32768x256
      (ix2 (⟨b.val * 2048 + s.val, by have := b.isLt; have := s.isLt; omega⟩ : Fin 32768) k)
        = m ((c.tc : Thread nD τ).loc main_arg0) (ix3 b s k) := fun k => Entry.flat_row_apply _ b s k
  have e1 : ∀ k : Fin 256, shapeCast S512x256 (m ((c.tc : Thread nD τ).loc main_arg1)) Facts₀.shapeCasts_S1x512x256_S512x256 (ix2 q k)
        = m ((c.tc : Thread nD τ).loc main_arg1) (ix3 (0 : Fin 1) q k) := fun k => Entry.centre_row_apply _ q k
  simp only [e0, e1]

/-- The kernel's result array after the run. -/
theorem result_eq (c : Dev nD) :
    Pipeline.afterTail₀ cfgs (dats m) 0 (V0 m) [hostOps1] c main_v7
      = Cert.SqDist.result (m ((c.tc : Thread nD τ).loc main_arg0)) (m ((c.tc : Thread nD τ).loc main_arg1)) := by
  rw [tail_eq, Blocks.final]
  funext i
  obtain ⟨b, s, q, rfl⟩ : ∃ (b : Fin 16) (s : Fin 2048) (q : Fin 512), i = ix3 b s q := ⟨i 0, i 1, i 2, eq_ix3 i⟩
  refine (shapeCast_apply _ Facts₀.shapeCasts_S32768x512_S16x2048x512 (ix3 b s q)
    (ix2 (⟨b.val * 2048 + s.val, by have := b.isLt; have := s.isLt; omega⟩ : Fin 32768) q) ?_).trans (table_entry m c b s q)
  rw [Shape.rowMajor_val_two, Shape.rowMajor_val_three]
  show (b.val * 2048 + s.val) * 512 + q.val = (b.val * 2048 + s.val) * 512 + q.val
  rfl

/-- Every weakly fair execution of the idealized kernel terminates with its result at the squared-distance function
    of its arguments, the arguments unchanged. -/
theorem run : θ_run defs (onTc (τ := τ) (main (F := Ideal))) ⟨m, fun _ => 0, ρ⟩ fun r => ∀ c : Dev nD,
      r.2.mem ((c.tc : Thread nD τ).loc main_v7)
        = Cert.SqDist.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v7 (Pipeline.mem_restRefs_of main_v7 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.KernelValue

end
-- ==== Proof.RefValue.lean ====
/-
  The reference, read entry by entry over the extended reals, is the squared-distance function of the
  specification: entry (b, s, q) is (0 + Σₖ f[b,s,k]²) + (0 + Σₖ c[0,q,k]²) − 2·Σₖ f[b,s,k]·c[0,q,k], the two zeros
  being the sums' starting values, which add nothing.
-/
import proofs.«148813_j84095459656141_2_alg».proof.Proof.Gen.ReferenceIdeal.Read
import proofs.«148813_j84095459656141_2_alg».proof.Proof.Spec

noncomputable section

open Idealize.ShloMosaic Idealize.ShloMosaic.ValueIdx

namespace Cert.ReferenceIdeal.RefValue

open Cert.ReferenceIdeal Cert.ReferenceIdeal.Read

/-- The feature norm at (b, s) sums over feature row (b, s). -/
theorem idx_feat (b : Fin 16) (s : Fin 2048) (q : Fin 512) (k : Fin 256) :
    idx_main_v2 (idx_main_v3 (idx_main_v8 (ix3 b s q))) k = ix3 b s k :=
  funext fun a => Fin.ext (by match a with | ⟨0, _⟩ => rfl | ⟨1, _⟩ => rfl | ⟨2, _⟩ => rfl)

/-- The centre norm at q sums over centre row q. -/
theorem idx_norm (b : Fin 16) (s : Fin 2048) (q : Fin 512) (k : Fin 256) :
    idx_main_v5 (idx_main_v7 (idx_main_v9 (ix3 b s q))) k = ix2 q k :=
  funext fun a => Fin.ext (by match a with | ⟨0, _⟩ => rfl | ⟨1, _⟩ => rfl)

/-- The product at (b, s, q) reads feature row (b, s) -/
theorem idx_lhs (b : Fin 16) (s : Fin 2048) (q : Fin 512) (k : Fin 256) :
    lidx_main_v6 (ix3 b s q) k = ix3 b s k :=
  funext fun a => Fin.ext (by match a with | ⟨0, _⟩ => rfl | ⟨1, _⟩ => rfl | ⟨2, _⟩ => rfl)

/-- against centre row q. -/
theorem idx_rhs (b : Fin 16) (s : Fin 2048) (q : Fin 512) (k : Fin 256) :
    ridx_main_v6 (ix3 b s q) k = ix2 q k :=
  funext fun a => Fin.ext (by match a with | ⟨0, _⟩ => rfl | ⟨1, _⟩ => rfl)

/-- Entry (q, k) of the centres without their unit axis is entry (0, q, k) of the centres. -/
theorem idx_centre (q : Fin 512) (k : Fin 256) : idx_main_v0 (ix2 q k) = ix3 (0 : Fin 1) q k :=
  funext fun a => Fin.ext (by
    match a with
    | ⟨0, _⟩ => rfl
    | ⟨1, _⟩ => show (q.val * 256 + k.val) / 256 % 512 = q.val; omega
    | ⟨2, _⟩ => show (q.val * 256 + k.val) % 256 = k.val; omega)

/-- The reference's result is the specification's function of its two arguments. -/
theorem result_eq (x0 : S16x2048x256.Idx → Ideal .f32) (x1 : S1x512x256.Idx → Ideal .f32) :
    val_main_v13 (F := Ideal) x0 x1 = Cert.SqDist.result x0 x1 := by
  funext i
  obtain ⟨b, s, q, rfl⟩ : ∃ (b : Fin 16) (s : Fin 2048) (q : Fin 512), i = ix3 b s q := ⟨i 0, i 1, i 2, eq_ix3 i⟩
  rw [val_main_v13_apply, val_main_v10_apply, val_main_v8_apply, val_main_v3_apply, val_main_v2_apply,
    val_main_v9_apply, val_main_v7_apply, val_main_v5_apply, val_main_v12_apply, val_main_v11_apply,
    val_main_cst_1_apply, val_main_v6_apply, Cert.SqDist.result_apply]
  simp only [val_main_v1_apply, val_main_v4_apply, val_main_v0_apply, val_main_cst_apply, val_main_cst_0_apply,
    idx_feat, idx_norm, idx_lhs, idx_rhs, idx_centre]
  show (Ideal.ofBits .f32 0x00000000#32 + ∑ k : Fin 256, x0 (ix3 b s k) * x0 (ix3 b s k)
      + (Ideal.ofBits .f32 0x00000000#32 + ∑ k : Fin 256, x1 (ix3 (0 : Fin 1) q k) * x1 (ix3 (0 : Fin 1) q k)))
      - Ideal.ofBits .f32 0x40000000#32 * ∑ k : Fin 256, x0 (ix3 b s k) * x1 (ix3 (0 : Fin 1) q k) = _
  rw [Ideal.ofBits_zero_f32, zero_add, zero_add]
  rfl

end Cert.ReferenceIdeal.RefValue

end
-- ==== Proof.lean ====
/-
  The kernel computes, for 32768 feature rows f and 512 centres c of 256 coordinates each, the squared distances
  ‖f‖² + ‖c‖² − 2·⟨f, c⟩, eight blocks of 4096 rows at a time: each block stores the cross products ⟨f, c⟩ (a matrix
  product of the operands rounded to a narrower format), reads them back, and overwrites them with the combination,
  the centres' norms ‖c‖² having been computed once before the region. The reference computes the same expression
  with whole-array operations. Over the extended reals a change of float format is the identity, a matrix product
  into a zero accumulator and a reduction from a zero start are plain sums over the 256 coordinates, and both
  programs group the three terms alike — (‖f‖² + ‖c‖²) − 2·⟨f, c⟩ with the same literal 2 — so both results are one
  function of the two arguments, entry by entry; no law that needs finiteness is used, and the precondition is
  never opened.

  The three frames are the generated ones (the reference's is its generated run with the result dropped); the
  idealization rewrote nothing, so `preserves` is trivial; `algebraic` pairs the kernel's run (Proof/KernelValue) with
  the reference's generated run read at an index (Proof/RefValue), both at the function of Proof/Spec.
-/
import proofs.«148813_j84095459656141_2_alg».proof.Defs
import proofs.«148813_j84095459656141_2_alg».proof.Proof.Gen.Kernel
import proofs.«148813_j84095459656141_2_alg».proof.Proof.Gen.Kernel.Skeleton
import proofs.«148813_j84095459656141_2_alg».proof.Proof.Gen.Kernel.Launch
import proofs.«148813_j84095459656141_2_alg».proof.Proof.Gen.Kernel.Points
import proofs.«148813_j84095459656141_2_alg».proof.Proof.Gen.Kernel.Frame
import proofs.«148813_j84095459656141_2_alg».proof.Proof.Gen.KernelIdeal
import proofs.«148813_j84095459656141_2_alg».proof.Proof.Gen.KernelIdeal.Skeleton
import proofs.«148813_j84095459656141_2_alg».proof.Proof.Gen.KernelIdeal.Launch
import proofs.«148813_j84095459656141_2_alg».proof.Proof.Gen.KernelIdeal.Points
import proofs.«148813_j84095459656141_2_alg».proof.Proof.Gen.KernelIdeal.Frame
import proofs.«148813_j84095459656141_2_alg».proof.Proof.Gen.ReferenceIdeal
import proofs.«148813_j84095459656141_2_alg».proof.Proof.Gen.Pre_finite_inputs
import proofs.«148813_j84095459656141_2_alg».proof.Proof.Gen.ReferenceIdeal.Run
import proofs.«148813_j84095459656141_2_alg».proof.Proof.Gen.ReferenceIdeal.Read
import proofs.«148813_j84095459656141_2_alg».proof.Proof.KernelValue
import proofs.«148813_j84095459656141_2_alg».proof.Proof.RefValue
import Idealize.ShloMosaic.Adequacy
import Idealize.ShloMosaic.Init

noncomputable section

namespace Cert.Proof

open Idealize.ShloMosaic Idealize.SL.Sem

/-- The kernel as printed runs to the end with its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, both idealized programs end with the squared-distance function of the
    arguments as their result. -/
theorem algebraic : Cert.algebraic_KernelIdeal_ReferenceIdeal := by
  intro m ρ m' ρ' _ hagree
  refine ⟨fun c => Cert.SqDist.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v13_eq, Cert.ReferenceIdeal.RefValue.result_eq,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
